-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x224x16384 : Shape := ⟨3, ![16, 224, 16384]⟩
abbrev S224 : Shape := ⟨1, ![224]⟩
abbrev S_ : Shape := ⟨0, ![]⟩

class Facts : Prop where
  bcast_S_S16x224x16384 : S_.BroadcastsInDim S16x224x16384 (![] : Fin 0 → Fin S16x224x16384.rank)
  reducesTo_S16x224x16384_S_d0_1_2 : S16x224x16384.ReducesTo [0, 1, 2] S_
  h_S_ : 0 < S_.numel
  bcast_S_S224 : S_.BroadcastsInDim S224 (![] : Fin 0 → Fin S224.rank)
  reducesTo_S224_S_d0 : S224.ReducesTo [0] S_

variable [Facts]

def fn {F : FTy → Type} [FloatOps F] (main_arg0 : FVec F S16x224x16384 .f32) (main_arg1 : FVec F S224 .f32) : IVec S_ 1 :=
  let main_v0 : FVec F S16x224x16384 .f32 := Host.absf main_arg0
  let main_cst : FVec F S_ .f32 := constant S_ .f32 0x7F800000#32
  let main_v1 : FVec F S16x224x16384 .f32 := broadcastInDim S16x224x16384 ![] bcast_S_S16x224x16384 main_cst
  let main_v2 : IVec S16x224x16384 1 := cmpf .olt main_v0 main_v1
  let main_c : IVec S_ 1 := constantI S_ 1 1#1
  let main_v3 : IVec S_ 1 := (fun x v => Host.reduce IntOp.andi x v reducesTo_S16x224x16384_S_d0_1_2 h_S_) main_v2 main_c
  let main_v4 : FVec F S224 .f32 := Host.absf main_arg1
  let main_cst_0 : FVec F S_ .f32 := constant S_ .f32 0x7F800000#32
  let main_v5 : FVec F S224 .f32 := broadcastInDim S224 ![] bcast_S_S224 main_cst_0
  let main_v6 : IVec S224 1 := cmpf .olt main_v4 main_v5
  let main_c_1 : IVec S_ 1 := constantI S_ 1 1#1
  let main_v7 : IVec S_ 1 := (fun x v => Host.reduce IntOp.andi x v reducesTo_S224_S_d0 h_S_) main_v6 main_c_1
  let main_v8 : IVec S_ 1 := andi main_v3 main_v7
  main_v8
-- ==== Kernel.lean ====
abbrev S16x224x16384 : Shape := ⟨3, ![16, 224, 16384]⟩
abbrev S224 : Shape := ⟨1, ![224]⟩
abbrev S1x224x16384 : Shape := ⟨3, ![1, 224, 16384]⟩
abbrev S1x224x1 : Shape := ⟨3, ![1, 224, 1]⟩

abbrev nBuf : Space → Nat
  | .hbm => 3
  | .vmem => 5
  | .smem => 0
  | _ => 0

abbrev bufTy : (tb : Table) → Fin (tcTables nBuf tb) → BufTy
  | .hbm, ⟨0, _⟩ => ⟨S16x224x16384, .f32⟩
  | .hbm, ⟨1, _⟩ => ⟨S224, .f32⟩
  | .hbm, ⟨2, _⟩ => ⟨S16x224x16384, .f32⟩
  | .local _ .vmem, ⟨0, _⟩ => ⟨S1x224x16384, .f32⟩
  | .local _ .vmem, ⟨1, _⟩ => ⟨S1x224x16384, .f32⟩
  | .local _ .vmem, ⟨2, _⟩ => ⟨S224, .f32⟩
  | .local _ .vmem, ⟨3, _⟩ => ⟨S1x224x16384, .f32⟩
  | .local _ .vmem, ⟨4, _⟩ => ⟨S1x224x16384, .f32⟩
  | _, _ => ⟨S16x224x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x224x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x224x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x224x16384_S1x224x16384_0_0_0 : ∀ a, (![0, 0, 0] : Fin 3 → Nat) a + S1x224x16384.size a ≤ S1x224x16384.size a
  h_S1x224x16384 : 0 < S1x224x16384.numel
  inb_S224_S224_0 : ∀ a, (![0] : Fin 1 → Nat) a + S224.size a ≤ S224.size a
  h_S224 : 0 < S224.numel
  shapeCasts_S224_S1x224x1 : S224.ShapeCasts S1x224x1
  broadcasts_S1x224x1_S1x224x16384 : S1x224x1.Broadcasts S1x224x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x224x16384.size a ≤ S16x224x16384.size a
  hwx0_0 : ∀ i : grid0.Coords, EltTy.bits .f32 = 32 ∨ (Rect.block (s := S16x224x16384) S1x224x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S224.size a ≤ S224.size a
  hwx0_1 : ∀ i : grid0.Coords, EltTy.bits .f32 = 32 ∨ (Rect.block (s := S224) S224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x224x16384.size a ≤ S16x224x16384.size a
  hwx0_2 : ∀ i : grid0.Coords, EltTy.bits .f32 = 32 ∨ (Rect.block (s := S16x224x16384) S1x224x16384.size (cc0_transform_2 i) (hinb0_2 i)).WholeWords (EltTy.packing .f32)

variable [Facts₀]

abbrev win0_0 : Pipeline.Window sig grid0 :=
  Pipeline.Window.ofSpec (Memref.whole main_arg0) S1x224x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x224x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x224x16384 : Shape := ⟨3, ![16, 224, 16384]⟩
abbrev S224 : Shape := ⟨1, ![224]⟩
abbrev S1x224x1 : Shape := ⟨3, ![1, 224, 1]⟩

abbrev nBuf : Space → Nat
  | .hbm => 5
  | .vmem => 0
  | .smem => 0
  | _ => 0

abbrev bufTy : (tb : Table) → Fin (tcTables nBuf tb) → BufTy
  | .hbm, ⟨0, _⟩ => ⟨S16x224x16384, .f32⟩
  | .hbm, ⟨1, _⟩ => ⟨S224, .f32⟩
  | .hbm, ⟨2, _⟩ => ⟨S1x224x1, .f32⟩
  | .hbm, ⟨3, _⟩ => ⟨S16x224x16384, .f32⟩
  | .hbm, ⟨4, _⟩ => ⟨S16x224x16384, .f32⟩
  | _, _ => ⟨S16x224x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S224_S1x224x1_1 : S224.BroadcastsInDim S1x224x1 (![1] : Fin 1 → Fin S1x224x1.rank)
  bcast_S1x224x1_S16x224x16384_0_1_2 : S1x224x1.BroadcastsInDim S16x224x16384 (![0, 1, 2] : Fin 3 → Fin S16x224x16384.rank)

variable [Facts₀]

class Facts : Prop extends Facts₀ where

variable [Facts]
-- ==== Proof.BandScale.lean ====
/-
  Band selection without binarisation: a signal of 16 samples, 224 bands and 16384 positions per band is
  multiplied, entry by entry, by the weight of the band the entry lies in,

      out (b, n, w) = x (b, n, w) * mask n.

  The entry's band is its middle coordinate. This file states that result as ONE function of the two argument
  arrays, index by index, for any reading of the float operations: no sum is formed and no factor moves, so
  nothing about the product is used beyond its being the same product on both sides.
-/
import Idealize.ShloMosaic.PureOps.Ideal
import Idealize.ShloMosaic.Lib.ValueIdx

noncomputable section

namespace Cert.BandScale

open Idealize.ShloMosaic

variable {F : FTy → Type} [FloatOps F]

/-- The signal's shape: samples, bands, positions. -/
abbrev Signal : Shape := ⟨3, ![16, 224, 16384]⟩

/-- One weight per band. -/
abbrev Bands : Shape := ⟨1, ![224]⟩

/-- The band an entry of the signal lies in: its middle coordinate, as an index of the weights. -/
abbrev bandOf (i : Signal.Idx) : Bands.Idx := fun a => match a with
  | ⟨0, _⟩ => ⟨(i 1).val, (i 1).isLt⟩

/-- Every entry of the signal multiplied by its band's weight. -/
def scaled (x : Vec F Signal .f32) (mask : Vec F Bands .f32) : Vec F Signal .f32 :=
  fun i => FloatOps.mulf (x i) (mask (bandOf i))

theorem scaled_apply (x : Vec F Signal .f32) (mask : Vec F Bands .f32) (i : Signal.Idx) :
    scaled x mask i = FloatOps.mulf (x i) (mask (bandOf i)) := rfl

end Cert.BandScale

end
-- ==== Proof.ReferenceScale.lean ====
/-
  The reference multiplies the signal by the weights laid out along the signal's shape: the 224 weights are
  placed on the middle axis of a [1, 224, 1] array, that array is repeated over the 16 samples and the 16384
  positions, and the product is taken entry by entry. Read at an entry (b, n, w), each repetition reads the
  weights at the entry's middle coordinate n, so the reference's result is every entry times its band's
  weight.
-/
import proofs.«123353_g89120571392064_cont_sun_c4_276_18_alg».proof.Proof.Gen.ReferenceIdeal.Read
import proofs.«123353_g89120571392064_cont_sun_c4_276_18_alg».proof.Proof.BandScale

noncomputable section

namespace Cert.ReferenceIdeal.RefValue

open Cert.ReferenceIdeal Cert.ReferenceIdeal.Gen Cert.ReferenceIdeal.Read Cert.BandScale Idealize.ShloMosaic

variable {F : FTy → Type} [FloatOps F]

/-- Through the two repetitions, an entry of the signal reads the weights at its own band. -/
theorem weight_index (i : S16x224x16384.Idx) : idx_main_v0 (idx_main_v1 i) = bandOf i :=
  funext fun a => match a with | ⟨0, _⟩ => rfl

/-- The weights repeated over samples and positions, at an entry, are the entry's band's weight. -/
theorem spread_apply (mask : Vec F S224 .f32) (i : S16x224x16384.Idx) :
    val_main_v1 (F := F) mask i = mask (bandOf i) := by
  rw [val_main_v1_apply, val_main_v0_apply, weight_index]

/-- The reference's result is the signal scaled band by band. -/
theorem reference_scaled (x : Vec F S16x224x16384 .f32) (mask : Vec F S224 .f32) :
    val_main_v2 (F := F) x mask = scaled x mask := by
  funext i
  rw [val_main_v2_apply, spread_apply, scaled_apply]

end Cert.ReferenceIdeal.RefValue

end
-- ==== Proof.KernelScale.lean ====
/-
  The kernel walks the 16 samples: at sample b it stages the sample's whole [1, 224, 16384] slab of the signal
  and the 224 weights, lays the weights along the slab's middle axis, repeats them over the 16384 positions,
  multiplies slab and repeated weights entry by entry, and writes the product back as slab b of the result.
  So what point b writes back is slab b of the signal scaled band by band; the 16 slabs tile the result; and
  the whole result array is the scaled signal.
-/
import proofs.«123353_g89120571392064_cont_sun_c4_276_18_alg».proof.Proof.Gen.KernelIdeal.Value
import proofs.«123353_g89120571392064_cont_sun_c4_276_18_alg».proof.Proof.BandScale

noncomputable section

namespace Cert.KernelIdeal.Slabs

open Cert.KernelIdeal Cert.KernelIdeal.Gen Cert.KernelIdeal.Value Cert.BandScale
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem origin3 : (![0, 0, 0] : Fin 3 → Nat) = fun _ => 0 := funext fun a => by fin_cases a <;> rfl
theorem origin1 : (![0] : Fin 1 → Nat) = fun _ => 0 := funext fun a => by fin_cases a <;> rfl

/-- Where the blocks of a grid point sit: the signal's slab and the result's slab are the same sample, at the
    start of the band and position axes, and the weights are always the one whole block. -/
theorem slab_places : ∀ t : Fin cfg0.N,
    win0_0.index t (0 : Fin 3) = win0_2.index t (0 : Fin 3)
    ∧ win0_0.index t (1 : Fin 3) = 0 ∧ win0_0.index t (2 : Fin 3) = 0
    ∧ win0_1.index t (0 : Fin 1) = 0
    ∧ win0_2.index t (1 : Fin 3) = 0 ∧ win0_2.index t (2 : Fin 3) = 0 :=
  (by decide +kernel : ∀ t : Fin grid0.N, _)

/-- Every sample's slab of the result is some grid point's block. -/
theorem slab_of_sample : ∀ q : Fin 16, ∃ t : Fin cfg0.N, win0_2.index t = ![q.val, 0, 0] :=
  (by decide +kernel : ∀ q : Fin 16, ∃ t : Fin grid0.N, win0_2.index t = ![q.val, 0, 0])

/-- The slab the body leaves, from a slab of the signal and the weights: each entry times the weight at the
    entry's middle coordinate. -/
theorem body_slab (P0 : Vec F S1x224x16384 .f32) (P1 : Vec F S224 .f32) : out0_2 P0 P1 = E2 P0 P1 := by
  unfold out0_2
  simp only [View.ld_unit_zero (S := S1x224x16384) origin3, View.ld_unit_zero (S := S224) origin1]
  exact funext (canon2_eq P0 P1)

/-- What grid point `t` writes back is its slab of the scaled signal. -/
theorem flushed_scaled (c : Dev nD) (t : Fin cfg0.N) :
    (dats m 0 c).flushed 2 t
      = ((cfg0.win 2).blk t).view.read (Elt F) (scaled (V m c main_arg0) (V m c main_arg1)) := by
  rw [flushed2, body_slab]
  obtain ⟨e0, e1, e2, e3, e4, e5⟩ := slab_places t
  funext j
  show FloatOps.mulf (V m c main_arg0 (((cfg0.win 0).blk t).view.emb (ix2_0 j)))
        (V m c main_arg1 (((cfg0.win 1).blk t).view.emb (ix2_1 j)))
      = FloatOps.mulf (V m c main_arg0 (((cfg0.win 2).blk t).view.emb j))
        (V m c main_arg1 (bandOf (((cfg0.win 2).blk t).view.emb j)))
  have hj0 : (j 0).val < 1 := (j 0).isLt
  have hj1 : (j 1).val < 224 := (j 1).isLt
  have hj2 : (j 2).val < 16384 := (j 2).isLt
  have h0 : ((cfg0.win 0).blk t).view.emb (ix2_0 j) = ((cfg0.win 2).blk t).view.emb j := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 224 + 1 * (j 1).val = win0_2.index t (1 : Fin 3) * 224 + 1 * (j 1).val; omega
    | ⟨2, _⟩ => show win0_0.index t (2 : Fin 3) * 16384 + 1 * (j 2).val = win0_2.index t (2 : Fin 3) * 16384 + 1 * (j 2).val; omega
  have h1 : ((cfg0.win 1).blk t).view.emb (ix2_1 j) = bandOf (((cfg0.win 2).blk t).view.emb j) := by
    funext a; apply Fin.ext
    match a with
    | ⟨0, _⟩ => show win0_1.index t (0 : Fin 1) * 224 + 1 * (j 1).val = win0_2.index t (1 : Fin 3) * 224 + 1 * (j 1).val; omega
  rw [h0, h1]

/-- An entry of the result lies in grid point `t`'s slab iff each coordinate is in the slab's range on its axis. -/
theorem mem_slab (t : Fin cfg0.N) (i : S16x224x16384.Idx) :
    i ∈ ((cfg0.win 2).blk t).view.set ↔ ∀ a : Fin 3, win0_2.index t a * S1x224x16384.size a ≤ (i a).val
      ∧ (i a).val < win0_2.index t a * S1x224x16384.size a + S1x224x16384.size a := by
  show i ∈ ((View.whole main_v0).slice (win0_2.rect t)).set ↔ _
  rw [View.set_slice_whole, Rect.mem_set_unit]
  exact Iff.rfl

/-- The slabs tile the result: the entry (b, n, w) is written by the grid point of sample b. -/
theorem slabs_cover (i : S16x224x16384.Idx) :
    ∃ t : Fin cfg0.N, (cfg0.win 2).flush t = true ∧ i ∈ ((cfg0.win 2).blk t).view.set := by
  have hi0 : (i 0).val < 16 := (i 0).isLt
  have hi1 : (i 1).val < 224 := (i 1).isLt
  have hi2 : (i 2).val < 16384 := (i 2).isLt
  obtain ⟨t, ht⟩ := slab_of_sample ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_slab]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 224 ≤ (i 1).val ∧ (i 1).val < win0_2.index t (1 : Fin 3) * 224 + 224; omega
  | ⟨2, _⟩ => show win0_2.index t (2 : Fin 3) * 16384 ≤ (i 2).val ∧ (i 2).val < win0_2.index t (2 : Fin 3) * 16384 + 16384; omega

/-- The result array after the run is the scaled signal. -/
theorem result_scaled (c : Dev nD) :
    (dats m 0 c).arrAt 2 cfg0.N
      = scaled (m ((c : Thread nD τ).loc main_arg0)) (m ((c : Thread nD τ).loc main_arg1)) :=
  (dats m 0 c).arrAt_eq_of_cover 2 (scaled (V m c main_arg0) (V m c main_arg1))
    (fun t _ => flushed_scaled m c t) slabs_cover

/-- Every weakly fair execution of the kernel ends with the result array at the scaled signal and the two
    arguments as launched. -/
theorem run : θ_run defs (onTc (τ := τ) (main (F := F))) ⟨m, fun _ => 0, ρ⟩ fun r => ∀ c : Dev nD,
      r.2.mem ((c : Thread nD τ).loc main_v0)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_scaled m c), (h c).2⟩) (run_blocks m ρ)

end Cert.KernelIdeal.Slabs

end
-- ==== Proof.lean ====
/-
  Band selection: the kernel and the reference both return the signal x of shape [16, 224, 16384] with every
  entry multiplied by the weight of its band,

      out (b, n, w) = x (b, n, w) * mask n.

  The kernel visits the 16 samples one after the other and writes, for sample b, the slab x (b, ·, ·) times
  the weights repeated along the positions; the 16 slabs tile the result. The reference repeats the weights
  over samples and positions first and multiplies the two whole arrays. At every entry both are the SAME
  product of the same two factors, in the same order, so the two results are equal for any reading of the
  float product, the extended reals in particular, and no finiteness of the inputs is used: nothing is summed,
  distributed or cancelled.

  The idealisation rewrote no operation of the kernel, so that conjunct is `True`. Each program's frame is its
  run with the result forgotten.
-/
import proofs.«123353_g89120571392064_cont_sun_c4_276_18_alg».proof.Defs
import proofs.«123353_g89120571392064_cont_sun_c4_276_18_alg».proof.Proof.Gen.Kernel
import proofs.«123353_g89120571392064_cont_sun_c4_276_18_alg».proof.Proof.Gen.Kernel.Skeleton
import proofs.«123353_g89120571392064_cont_sun_c4_276_18_alg».proof.Proof.Gen.Kernel.Launch
import proofs.«123353_g89120571392064_cont_sun_c4_276_18_alg».proof.Proof.Gen.Kernel.Points
import proofs.«123353_g89120571392064_cont_sun_c4_276_18_alg».proof.Proof.Gen.Kernel.Frame
import proofs.«123353_g89120571392064_cont_sun_c4_276_18_alg».proof.Proof.Gen.KernelIdeal
import proofs.«123353_g89120571392064_cont_sun_c4_276_18_alg».proof.Proof.Gen.KernelIdeal.Skeleton
import proofs.«123353_g89120571392064_cont_sun_c4_276_18_alg».proof.Proof.Gen.KernelIdeal.Launch
import proofs.«123353_g89120571392064_cont_sun_c4_276_18_alg».proof.Proof.Gen.KernelIdeal.Points
import proofs.«123353_g89120571392064_cont_sun_c4_276_18_alg».proof.Proof.Gen.KernelIdeal.Frame
import proofs.«123353_g89120571392064_cont_sun_c4_276_18_alg».proof.Proof.Gen.ReferenceIdeal
import proofs.«123353_g89120571392064_cont_sun_c4_276_18_alg».proof.Proof.Gen.Pre_finite_inputs
import proofs.«123353_g89120571392064_cont_sun_c4_276_18_alg».proof.Proof.Gen.KernelIdeal.Value
import proofs.«123353_g89120571392064_cont_sun_c4_276_18_alg».proof.Proof.Gen.ReferenceIdeal.Run
import proofs.«123353_g89120571392064_cont_sun_c4_276_18_alg».proof.Proof.Gen.ReferenceIdeal.Read
import proofs.«123353_g89120571392064_cont_sun_c4_276_18_alg».proof.Proof.BandScale
import proofs.«123353_g89120571392064_cont_sun_c4_276_18_alg».proof.Proof.ReferenceScale
import proofs.«123353_g89120571392064_cont_sun_c4_276_18_alg».proof.Proof.KernelScale
import Idealize.ShloMosaic.Adequacy
import Idealize.ShloMosaic.Init

noncomputable section

namespace Cert.Proof

open Idealize.ShloMosaic Idealize.ShloMosaic.TcCoe Idealize.SL.Sem

/-- The kernel as printed runs to the end and leaves its two arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's three operations run to the end; its arguments are never written. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the signal and the weights, the kernel's result
    array and the reference's are both the signal scaled band by band. -/
theorem algebraic : Cert.algebraic_KernelIdeal_ReferenceIdeal := by
  intro m ρ m' ρ' _ hagree
  refine ⟨_, Cert.KernelIdeal.Slabs.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_scaled,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
